-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x224x224 : Shape := ⟨4, ![32, 128, 224, 224]⟩
abbrev S_ : Shape := ⟨0, ![]⟩

class Facts : Prop where
  bcast_S_S32x128x224x224 : S_.BroadcastsInDim S32x128x224x224 (![] : Fin 0 → Fin S32x128x224x224.rank)
  reducesTo_S32x128x224x224_S_d0_1_2_3 : S32x128x224x224.ReducesTo [0, 1, 2, 3] S_
  h_S_ : 0 < S_.numel

variable [Facts]

def fn {F : FTy → Type} [FloatOps F] (main_arg0 : FVec F S32x128x224x224 .f32) : IVec S_ 1 :=
  let main_v0 : FVec F S32x128x224x224 .f32 := Host.absf main_arg0
  let main_cst : FVec F S_ .f32 := constant S_ .f32 0x7F800000#32
  let main_v1 : FVec F S32x128x224x224 .f32 := broadcastInDim S32x128x224x224 ![] bcast_S_S32x128x224x224 main_cst
  let main_v2 : IVec S32x128x224x224 1 := cmpf .olt main_v0 main_v1
  let main_c : IVec S_ 1 := constantI S_ 1 1#1
  let main_v3 : IVec S_ 1 := (fun x v => Host.reduce IntOp.andi x v reducesTo_S32x128x224x224_S_d0_1_2_3 h_S_) main_v2 main_c
  main_v3
-- ==== Kernel.lean ====
abbrev S32x128x224x224 : Shape := ⟨4, ![32, 128, 224, 224]⟩
abbrev S4096x224x224 : Shape := ⟨3, ![4096, 224, 224]⟩
abbrev S4096x112x112 : Shape := ⟨3, ![4096, 112, 112]⟩
abbrev S32x224x224 : Shape := ⟨3, ![32, 224, 224]⟩
abbrev S32x112x112 : Shape := ⟨3, ![32, 112, 112]⟩
abbrev S32x224x112x2 : Shape := ⟨4, ![32, 224, 112, 2]⟩
abbrev S32x224x112 : Shape := ⟨3, ![32, 224, 112]⟩
abbrev S32x112x2x112 : Shape := ⟨4, ![32, 112, 2, 112]⟩
abbrev S32x128x112x112 : Shape := ⟨4, ![32, 128, 112, 112]⟩

abbrev nBuf : Space → Nat
  | .hbm => 4
  | .vmem => 4
  | .smem => 0
  | _ => 0

abbrev bufTy : (tb : Table) → Fin (tcTables nBuf tb) → BufTy
  | .hbm, ⟨0, _⟩ => ⟨S32x128x224x224, .f32⟩
  | .hbm, ⟨1, _⟩ => ⟨S4096x224x224, .f32⟩
  | .hbm, ⟨2, _⟩ => ⟨S4096x112x112, .f32⟩
  | .hbm, ⟨3, _⟩ => ⟨S32x128x112x112, .f32⟩
  | .local _ .vmem, ⟨0, _⟩ => ⟨S32x224x224, .f32⟩
  | .local _ .vmem, ⟨1, _⟩ => ⟨S32x224x224, .f32⟩
  | .local _ .vmem, ⟨2, _⟩ => ⟨S32x112x112, .f32⟩
  | .local _ .vmem, ⟨3, _⟩ => ⟨S32x112x112, .f32⟩
  | _, _ => ⟨S32x128x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x112x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x128x224x224_S4096x224x224 : S32x128x224x224.ShapeCasts S4096x224x224
  inb_S32x224x224_S32x224x224_0_0_0 : ∀ a, (![0, 0, 0] : Fin 3 → Nat) a + S32x224x224.size a ≤ S32x224x224.size a
  h_S32x224x224 : 0 < S32x224x224.numel
  shapeCasts_S32x224x224_S32x224x224 : S32x224x224.ShapeCasts S32x224x224
  shapeCasts_S32x224x224_S32x224x112x2 : S32x224x224.ShapeCasts S32x224x112x2
  reduces_S32x224x112x2_S32x224x112 : S32x224x112x2.Reduces [3] S32x224x112
  shapeCasts_S32x224x112_S32x112x2x112 : S32x224x112.ShapeCasts S32x112x2x112
  reduces_S32x112x2x112_S32x112x112 : S32x112x2x112.Reduces [2] S32x112x112
  inb_S32x112x112_S32x112x112_0_0_0 : ∀ a, (![0, 0, 0] : Fin 3 → Nat) a + S32x112x112.size a ≤ S32x112x112.size a
  h_S32x112x112 : 0 < S32x112x112.numel
  shapeCasts_S4096x112x112_S32x128x112x112 : S4096x112x112.ShapeCasts S32x128x112x112
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x224x224.size a ≤ S4096x224x224.size a
  hwx0_0 : ∀ i : grid0.Coords, EltTy.bits .f32 = 32 ∨ (Rect.block (s := S4096x224x224) S32x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x112x112.size a ≤ S4096x112x112.size a
  hwx0_1 : ∀ i : grid0.Coords, EltTy.bits .f32 = 32 ∨ (Rect.block (s := S4096x112x112) S32x112x112.size (cc0_transform_1 i) (hinb0_1 i)).WholeWords (EltTy.packing .f32)

variable [Facts₀]

abbrev win0_0 : Pipeline.Window sig grid0 :=
  Pipeline.Window.ofSpec (Memref.whole main_v0) S32x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x112x112.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x128x224x224 : Shape := ⟨4, ![32, 128, 224, 224]⟩
abbrev S_ : Shape := ⟨0, ![]⟩
abbrev S32x128x112x112 : Shape := ⟨4, ![32, 128, 112, 112]⟩

abbrev nBuf : Space → Nat
  | .hbm => 4
  | .vmem => 0
  | .smem => 0
  | _ => 0

abbrev bufTy : (tb : Table) → Fin (tcTables nBuf tb) → BufTy
  | .hbm, ⟨0, _⟩ => ⟨S32x128x224x224, .f32⟩
  | .hbm, ⟨1, _⟩ => ⟨S_, .f32⟩
  | .hbm, ⟨2, _⟩ => ⟨S_, .f32⟩
  | .hbm, ⟨3, _⟩ => ⟨S32x128x112x112, .f32⟩
  | _, _ => ⟨S32x128x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S32x128x224x224_S32x128x112x112_w1s1p0_0_w1s1p0_0_w2s2p0_0_w2s2p0_0 : S32x128x224x224.ReduceWindows (![1, 1, 2, 2] : Fin 4 → Nat) ![1, 1, 2, 2] ![0, 0, 0, 0] ![0, 0, 0, 0] S32x128x112x112
  h_S_ : 0 < S_.numel

variable [Facts₀]

class Facts : Prop extends Facts₀ where

variable [Facts]
-- ==== Proof.PoolSpec.lean ====
/-
  Max pooling of an image plane with a 2 × 2 window, stride 2 and no padding: output entry (i, j) is the
  largest of the four input entries in rows 2i, 2i + 1 and columns 2j, 2j + 1. Stated once, over a plane
  given by its two coordinates, so that a block of planes, the array of all planes and the four-axis
  tensor each pool "plane by plane" with the same function.

  Also here: the two facts about the extended reals the proof uses. The f32 word 0xFF800000 is −∞, the
  least element; and a fold of max from −∞ over a two-element index type is the max of the two entries
  (−∞ is the identity of max, so the starting value disappears).
-/
import Idealize.ShloMosaic.PureOps.Ideal
import Idealize.ShloMosaic.Lib.ValueIdx

noncomputable section

namespace Cert.Pool

open Idealize.ShloMosaic Idealize.ShloMosaic.ValueIdx

/-- Input row (or column) 2i + k: the k-th of the two rows (columns) that output row (column) i pools. -/
def tap (i : Fin 112) (k : Fin 2) : Fin 224 := ⟨2 * i.val + k.val, by omega⟩

theorem tap_val (i : Fin 112) (k : Fin 2) : (tap i k).val = 2 * i.val + k.val := rfl

/-- The pooled value of the plane p at output position (i, j): the max over the two rows of the max over
    the two columns. -/
def pool2 (p : Fin 224 → Fin 224 → EReal) (i j : Fin 112) : EReal :=
  max (max (p (tap i 0) (tap j 0)) (p (tap i 0) (tap j 1))) (max (p (tap i 1) (tap j 0)) (p (tap i 1) (tap j 1)))

/-- Pooling sees a plane only through its entries. -/
theorem pool2_congr {p q : Fin 224 → Fin 224 → EReal} (h : ∀ r w, p r w = q r w) (i j : Fin 112) :
    pool2 p i j = pool2 q i j := by
  unfold pool2; rw [h, h, h, h]

/-- The f32 word of −∞ is the least extended real. -/
theorem ofBits_neg_inf : Ideal.ofBits .f32 0xFF800000#32 = (⊥ : EReal) := by simp [Ideal.ofBits, Ideal.ieee]

/-- A fold of max from −∞ over two positions is the max of the two entries. -/
theorem fold_max_two (f : Fin 2 → EReal) : (Finset.univ : Finset (Fin 2)).fold max ⊥ f = max (f 0) (f 1) := by
  rw [show (Finset.univ : Finset (Fin 2)) = {0, 1} from by decide, Finset.fold_insert (by decide),
    Finset.fold_singleton, max_bot_right]

/-- The same four entries taken in one pass, row by row, starting from −∞: the order in which a window is
    walked does not matter, since max is associative and −∞ is its identity. -/
theorem walk_eq_pool2 (p : Fin 224 → Fin 224 → EReal) (i j : Fin 112) :
    max (max (max (max ⊥ (p (tap i 0) (tap j 0))) (p (tap i 0) (tap j 1))) (p (tap i 1) (tap j 0))) (p (tap i 1) (tap j 1))
      = pool2 p i j := by
  unfold pool2; rw [max_bot_left, max_assoc]

end Cert.Pool

end
-- ==== Proof.PoolOps.lean ====
/-
  The operations the pooling kernel is made of, each read at an index, over the literal shapes of one
  block of 32 planes.

  The kernel pools in two steps. It views each row of 224 columns as 112 pairs (a row-major reshape
  [32,224,224] → [32,224,112,2]: entry (b, r, j, l) is column 2j + l of row r) and takes the max over the
  pair axis; then it views the 224 rows as 112 pairs of rows ([32,224,112] → [32,112,2,112]: entry
  (b, i, k, j) is row 2i + k) and takes the max over that pair axis. Each max is a fold from −∞ over an
  axis of extent two, hence the max of the two entries.

  Around the kernel the host merges the batch and channel axes into one axis of 4096 planes and splits it
  again afterwards: plane 128·b + c is image b, channel c, and both reshapes keep row-major order.
-/
import proofs.«103220_j12094627905543_2_alg».proof.Proof.PoolSpec
import Idealize.ShloMosaic.PureOps.Ideal.Laws
import Idealize.ShloMosaic.Lib.Pipeline.Value

noncomputable section

namespace Cert.Pool

open Idealize.ShloMosaic Idealize.ShloMosaic.ValueIdx

/-- One block: 32 planes of 224 × 224. -/
abbrev Blk : Shape := ⟨3, ![32, 224, 224]⟩
/-- The block with each row's columns grouped in pairs. -/
abbrev BlkColPairs : Shape := ⟨4, ![32, 224, 112, 2]⟩
/-- The block after the column pairs are reduced. -/
abbrev BlkHalf : Shape := ⟨3, ![32, 224, 112]⟩
/-- That with the rows grouped in pairs. -/
abbrev BlkRowPairs : Shape := ⟨4, ![32, 112, 2, 112]⟩
/-- The pooled block. -/
abbrev BlkOut : Shape := ⟨3, ![32, 112, 112]⟩
/-- All 4096 planes, and their pooled planes. -/
abbrev Planes : Shape := ⟨3, ![4096, 224, 224]⟩
abbrev PlanesOut : Shape := ⟨3, ![4096, 112, 112]⟩
/-- The tensor by image and channel, and its pooled tensor. -/
abbrev Img : Shape := ⟨4, ![32, 128, 224, 224]⟩
abbrev ImgOut : Shape := ⟨4, ![32, 128, 112, 112]⟩

/-! ## The two reshapes inside the body -/

/-- Grouping columns in pairs: entry (b, r, j, l) of the reshaped block is column 2j + l of row r. -/
theorem colPairs_apply {α : Type} (x : Blk.Idx → α) (h : Blk.ShapeCasts BlkColPairs)
    (b : Fin 32) (r : Fin 224) (j : Fin 112) (l : Fin 2) :
    shapeCast BlkColPairs x h (ix4 b r j l) = x (ix3 b r (tap j l)) :=
  shapeCast_apply x h _ _ (by
    rw [Shape.rowMajor_val_three, Shape.rowMajor_val_four]
    show (b.val * 224 + r.val) * 224 + (2 * j.val + l.val) = ((b.val * 224 + r.val) * 112 + j.val) * 2 + l.val
    omega)

/-- Grouping rows in pairs: entry (b, i, k, j) of the reshaped block is row 2i + k, column j. -/
theorem rowPairs_apply {α : Type} (y : BlkHalf.Idx → α) (h : BlkHalf.ShapeCasts BlkRowPairs)
    (b : Fin 32) (i : Fin 112) (k : Fin 2) (j : Fin 112) :
    shapeCast BlkRowPairs y h (ix4 b i k j) = y (ix3 b (tap i k) j) :=
  shapeCast_apply y h _ _ (by
    rw [Shape.rowMajor_val_three, Shape.rowMajor_val_four]
    show (b.val * 224 + (2 * i.val + k.val)) * 112 + j.val = ((b.val * 112 + i.val) * 2 + k.val) * 112 + j.val
    omega)

/-! ## The two maxima over a pair axis -/

/-- The source index over (b, r, j) with l on the dropped last axis is (b, r, j, l). -/
theorem lift_colPair (h : BlkColPairs.Reduces [3] BlkHalf) (b : Fin 32) (r : Fin 224) (j : Fin 112) (l : Fin 2) :
    h.lift (ix3 b r j) l = ix4 b r j l := by
  funext c; apply Fin.ext
  match c with
  | ⟨0, _⟩ => rfl
  | ⟨1, _⟩ => rfl
  | ⟨2, _⟩ => rfl
  | ⟨3, _⟩ => rfl

/-- The source index over (b, i, j) with k on the dropped axis 2 is (b, i, k, j). -/
theorem lift_rowPair (h : BlkRowPairs.Reduces [2] BlkOut) (b : Fin 32) (i : Fin 112) (j : Fin 112) (k : Fin 2) :
    h.lift (ix3 b i j) k = ix4 b i k j := by
  funext c; apply Fin.ext
  match c with
  | ⟨0, _⟩ => rfl
  | ⟨1, _⟩ => rfl
  | ⟨2, _⟩ => rfl
  | ⟨3, _⟩ => rfl

/-- The max over the column-pair axis, from −∞, at (b, r, j): the larger of the pair's two entries. -/
theorem colPairMax_apply (src : FVec Ideal BlkColPairs .f32) (h : BlkColPairs.Reduces [3] BlkHalf) (hφ : FKind.Formats .f32)
    (hacc : (0xFF800000#32 : BitVec 32) = FKind.maximumf.neutral .f32 hφ) (b : Fin 32) (r : Fin 224) (j : Fin 112) :
    multiReduction .maximumf [3] BlkHalf src 0xFF800000#32 h hφ hacc (ix3 b r j)
      = max (src (ix4 b r j 0)) (src (ix4 b r j 1)) := by
  refine (Ideal.multiReduction_maximumf_single src _ h hφ hacc (ix3 b r j)).trans ?_
  rw [Ideal.ofBits_def, ofBits_neg_inf]
  refine (fold_max_two _).trans ?_
  exact congrArg₂ max (congrArg src (lift_colPair h b r j 0)) (congrArg src (lift_colPair h b r j 1))

/-- The max over the row-pair axis, from −∞, at (b, i, j): the larger of the pair's two entries. -/
theorem rowPairMax_apply (src : FVec Ideal BlkRowPairs .f32) (h : BlkRowPairs.Reduces [2] BlkOut) (hφ : FKind.Formats .f32)
    (hacc : (0xFF800000#32 : BitVec 32) = FKind.maximumf.neutral .f32 hφ) (b : Fin 32) (i : Fin 112) (j : Fin 112) :
    multiReduction .maximumf [2] BlkOut src 0xFF800000#32 h hφ hacc (ix3 b i j)
      = max (src (ix4 b i 0 j)) (src (ix4 b i 1 j)) := by
  refine (Ideal.multiReduction_maximumf_single src _ h hφ hacc (ix3 b i j)).trans ?_
  rw [Ideal.ofBits_def, ofBits_neg_inf]
  refine (fold_max_two _).trans ?_
  exact congrArg₂ max (congrArg src (lift_rowPair h b i j 0)) (congrArg src (lift_rowPair h b i j 1))

/-! ## The host's two reshapes -/

/-- Plane 128·b + c is channel c of image b. -/
def plane (b : Fin 32) (ch : Fin 128) : Fin 4096 := ⟨b.val * 128 + ch.val, by omega⟩

/-- Merging the image and channel axes: plane 128·b + c of the merged array is channel c of image b. -/
theorem mergePlanes_apply {α : Type} (x : Img.Idx → α) (h : Img.ShapeCasts Planes)
    (b : Fin 32) (ch : Fin 128) (r w : Fin 224) :
    shapeCast Planes x h (ix3 (plane b ch) r w) = x (ix4 b ch r w) :=
  shapeCast_apply x h _ _ (by
    rw [Shape.rowMajor_val_three, Shape.rowMajor_val_four]
    show ((b.val * 128 + ch.val) * 224 + r.val) * 224 + w.val = ((b.val * 128 + ch.val) * 224 + r.val) * 224 + w.val
    rfl)

/-- Splitting them again: channel c of image b of the split array is plane 128·b + c. -/
theorem splitPlanes_apply {α : Type} (y : PlanesOut.Idx → α) (h : PlanesOut.ShapeCasts ImgOut)
    (b : Fin 32) (ch : Fin 128) (i j : Fin 112) :
    shapeCast ImgOut y h (ix4 b ch i j) = y (ix3 (plane b ch) i j) :=
  shapeCast_apply y h _ _ (by
    rw [Shape.rowMajor_val_three, Shape.rowMajor_val_four]
    show ((b.val * 128 + ch.val) * 112 + i.val) * 112 + j.val = ((b.val * 128 + ch.val) * 112 + i.val) * 112 + j.val
    rfl)

/-! ## Pooling plane by plane -/

/-- Every one of the 4096 planes pooled. -/
def poolPlanes (y : Planes.Idx → EReal) : PlanesOut.Idx → EReal :=
  fun q => pool2 (fun r w => y (ix3 (q 0) r w)) (q 1) (q 2)

/-- Every channel of every image pooled: max pooling of the four-axis tensor. -/
def poolImg (x : Img.Idx → EReal) : ImgOut.Idx → EReal :=
  fun q => pool2 (fun r w => x (ix4 (q 0) (q 1) r w)) (q 2) (q 3)

theorem poolPlanes_apply (y : Planes.Idx → EReal) (p : Fin 4096) (i j : Fin 112) :
    poolPlanes y (ix3 p i j) = pool2 (fun r w => y (ix3 p r w)) i j := rfl

theorem poolImg_apply (x : Img.Idx → EReal) (b : Fin 32) (ch : Fin 128) (i j : Fin 112) :
    poolImg x (ix4 b ch i j) = pool2 (fun r w => x (ix4 b ch r w)) i j := rfl

/-- Merging image and channel, pooling every plane, and splitting again is pooling every channel of every
    image: plane 128·b + c is channel c of image b on the way in and on the way out. -/
theorem split_pool_merge (x : Img.Idx → EReal) (h0 : Img.ShapeCasts Planes) (h1 : PlanesOut.ShapeCasts ImgOut) :
    shapeCast ImgOut (poolPlanes (shapeCast Planes x h0)) h1 = poolImg x := by
  funext q
  obtain ⟨b, ch, i, j, rfl⟩ : ∃ (b : Fin 32) (ch : Fin 128) (i j : Fin 112), q = ix4 b ch i j :=
    ⟨q 0, q 1, q 2, q 3, eq_ix4 q⟩
  rw [splitPlanes_apply, poolPlanes_apply, poolImg_apply]
  exact pool2_congr (fun r w => mergePlanes_apply x h0 b ch r w) i j

end Cert.Pool

end
-- ==== Proof.PoolBody.lean ====
/-
  The kernel body's arithmetic at an index. From a block of 32 planes the body computes, at plane b and
  output position (i, j), the max over the two rows 2i, 2i + 1 of the max over the two columns 2j, 2j + 1:
  the pooled value of plane b there.
-/
import proofs.«103220_j12094627905543_2_alg».proof.Proof.Gen.KernelIdeal.Skeleton
import proofs.«103220_j12094627905543_2_alg».proof.Proof.PoolOps

noncomputable section

namespace Cert.KernelIdeal.Body

open Cert.KernelIdeal Cert.KernelIdeal.Gen Cert.Pool Idealize.ShloMosaic Idealize.ShloMosaic.ValueIdx

/-- The stored value at (b, i, j) is the pooled value of the loaded block's plane b at (i, j): the row-pair
    max reads rows 2i and 2i + 1 of the column-pair max, which reads columns 2j and 2j + 1 of the block. -/
theorem payload_apply (v0 : Vec Ideal S32x224x224 .f32) (b : Fin 32) (i j : Fin 112) :
    k0_pay1 (F := Ideal) v0 (ix3 b i j) = pool2 (fun r w => v0 (ix3 b r w)) i j := by
  unfold k0_pay1 pool2
  dsimp only
  refine (rowPairMax_apply _ _ _ _ b i j).trans ?_
  rw [rowPairs_apply, rowPairs_apply]
  refine congrArg₂ max ((colPairMax_apply _ _ _ _ b (tap i 0) j).trans ?_) ((colPairMax_apply _ _ _ _ b (tap i 1) j).trans ?_)
  · rw [colPairs_apply, colPairs_apply, shapeCast_self]
  · rw [colPairs_apply, colPairs_apply, shapeCast_self]

end Cert.KernelIdeal.Body

end
-- ==== Proof.PoolArray.lean ====
/-
  From blocks to the whole result. Grid point t stages planes 32t … 32t + 31 (all 224 rows and columns) and
  writes back the same planes of the output (all 112 rows and columns), so what it writes back is block t of
  ONE function of the merged array: every plane pooled. The 128 points' blocks tile the 4096 planes (plane p
  lies in the block of point p / 32), hence the output array ends holding every plane pooled; the host's
  reshape before the kernel merges image and channel into the plane axis, the one after it splits them
  again, and the kernel's result is the pooled tensor.
-/
import proofs.«103220_j12094627905543_2_alg».proof.Proof.Gen.KernelIdeal.Frame
import proofs.«103220_j12094627905543_2_alg».proof.Proof.PoolBody
import Idealize.ShloMosaic.Lib.Pipeline.Value
import Idealize.ShloMosaic.Lib.StableHlo.Run

set_option maxRecDepth 16384

noncomputable section

namespace Cert.KernelIdeal.PoolValue

open Cert.KernelIdeal Cert.KernelIdeal.Gen Cert.Pool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- Both windows' blocks move along the plane axis only, one block per grid point. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Plane b of point t's block is plane 32t + b of the array. -/
def blockPlane (t : Fin cfg0.N) (b : Fin 32) : Fin 4096 :=
  ⟨32 * t.val + b.val, by have h : t.val < 128 := lt_of_lt_of_eq t.isLt N_0; omega⟩

/-- The input block at point t, entry (b, r, w), is entry (32t + b, r, w) of the merged array. -/
theorem iblk_apply (c : Dev nD) (t : Fin cfg0.N) (b : Fin 32) (r w : Fin 224) :
    iblk m c 0 t (ix3 b r w) = V m c main_v0 (ix3 (blockPlane t b) r w) := by
  obtain ⟨e0, e1, e2, -, -, -⟩ := idx_facts t
  show V m c main_v0 (((cfg0.win 0).blk t).view.emb (ix3 b r w)) = V m c main_v0 (ix3 (blockPlane t b) r w)
  refine congrArg (V m c main_v0) ?_
  funext a; apply Fin.ext
  match a with
  | ⟨0, _⟩ => show win0_0.index t (0 : Fin 3) * 32 + 1 * b.val = 32 * t.val + b.val; omega
  | ⟨1, _⟩ => show win0_0.index t (1 : Fin 3) * 224 + 1 * r.val = r.val; omega
  | ⟨2, _⟩ => show win0_0.index t (2 : Fin 3) * 224 + 1 * w.val = w.val; omega

/-- The output block at point t, entry (b, i, j), sits at entry (32t + b, i, j) of the output array. -/
theorem oblk_emb (t : Fin cfg0.N) (b : Fin 32) (i j : Fin 112) :
    ((cfg0.win 1).blk t).view.emb (ix3 b i j) = ix3 (blockPlane t b) i j := by
  obtain ⟨-, -, -, e0, e1, e2⟩ := idx_facts t
  funext a; apply Fin.ext
  match a with
  | ⟨0, _⟩ => show win0_1.index t (0 : Fin 3) * 32 + 1 * b.val = 32 * t.val + b.val; omega
  | ⟨1, _⟩ => show win0_1.index t (1 : Fin 3) * 112 + 1 * i.val = i.val; omega
  | ⟨2, _⟩ => show win0_1.index t (2 : Fin 3) * 112 + 1 * j.val = j.val; omega

/-- What point t writes back is block t of the pooled planes of the merged array. -/
theorem flushed_eq (c : Dev nD) (t : Fin cfg0.N) :
    (dats m 0 c).flushed 1 t = ((cfg0.win 1).blk t).view.read (Elt Ideal) (poolPlanes (V m c main_v0)) := by
  show (cfg0.win 1).cut (grid0.coords t) ((dats m 0 c).after 1 t) = _
  rw [after0_1]
  unfold out0_1
  rw [View.canon_unit_zero hz]
  simp only [View.ld_unit_zero (S := S32x224x224) hz]
  funext y
  obtain ⟨b, i, j, rfl⟩ : ∃ (b : Fin 32) (i j : Fin 112), y = ix3 b i j := ⟨y 0, y 1, y 2, eq_ix3 y⟩
  show k0_pay1 (iblk m c 0 t) (ix3 b i j) = poolPlanes (V m c main_v0) (((cfg0.win 1).blk t).view.emb (ix3 b i j))
  rw [oblk_emb, poolPlanes_apply]
  refine (Body.payload_apply (iblk m c 0 t) b i j).trans ?_
  exact pool2_congr (fun r w => iblk_apply m c t b r w) i j

/-- An index of the output array is in point t's block iff each coordinate is in the block's range. -/
theorem mem_blk (t : Fin cfg0.N) (q : S4096x112x112.Idx) :
    q ∈ ((cfg0.win 1).blk t).view.set ↔ ∀ a : Fin 3, win0_1.index t a * S32x112x112.size a ≤ (q a).val
      ∧ (q a).val < win0_1.index t a * S32x112x112.size a + S32x112x112.size a := by
  show q ∈ ((View.whole main_v1).slice (win0_1.rect t)).set ↔ _
  rw [View.set_slice_whole, Rect.mem_set_unit]
  exact Iff.rfl

/-- Every index of the output array is written by some point: plane p by point p / 32. -/
theorem cover (q : S4096x112x112.Idx) :
    ∃ t : Fin cfg0.N, (cfg0.win 1).flush t = true ∧ q ∈ ((cfg0.win 1).blk t).view.set := by
  have hq0 : (q 0).val < 4096 := (q 0).isLt
  have hq1 : (q 1).val < 112 := (q 1).isLt
  have hq2 : (q 2).val < 112 := (q 2).isLt
  have ht : (q 0).val / 32 < cfg0.N := by rw [show cfg0.N = 128 from N_0]; omega
  obtain ⟨-, -, -, e0, e1, e2⟩ := idx_facts ⟨(q 0).val / 32, ht⟩
  refine ⟨⟨(q 0).val / 32, ht⟩, flush0_1 _, ?_⟩
  rw [mem_blk]
  intro a
  match a with
  | ⟨0, _⟩ =>
    show win0_1.index ⟨(q 0).val / 32, ht⟩ (0 : Fin 3) * 32 ≤ (q 0).val
      ∧ (q 0).val < win0_1.index ⟨(q 0).val / 32, ht⟩ (0 : Fin 3) * 32 + 32
    rw [e0]; show (q 0).val / 32 * 32 ≤ (q 0).val ∧ (q 0).val < (q 0).val / 32 * 32 + 32; omega
  | ⟨1, _⟩ =>
    show win0_1.index ⟨(q 0).val / 32, ht⟩ (1 : Fin 3) * 112 ≤ (q 1).val
      ∧ (q 1).val < win0_1.index ⟨(q 0).val / 32, ht⟩ (1 : Fin 3) * 112 + 112
    rw [e1]; omega
  | ⟨2, _⟩ =>
    show win0_1.index ⟨(q 0).val / 32, ht⟩ (2 : Fin 3) * 112 ≤ (q 2).val
      ∧ (q 2).val < win0_1.index ⟨(q 0).val / 32, ht⟩ (2 : Fin 3) * 112 + 112
    rw [e2]; omega

/-- The output array after the run: every plane of the merged array pooled. -/
theorem final (c : Dev nD) : (dats m 0 c).arrAt 1 cfg0.N = poolPlanes (V m c main_v0) :=
  (dats m 0 c).arrAt_eq_of_cover 1 (poolPlanes (V m c main_v0)) (fun t _ => flushed_eq m c t) cover

/-- The merged array the kernel finds: the argument with image and channel merged, in row-major order. -/
theorem V_main_v0 (c : Dev nD) : (V m c main_v0 : S4096x224x224.Idx → EReal)
    = shapeCast S4096x224x224 (m ((c : Thread nD τ).loc main_arg0)) shapeCasts_S32x128x224x224_S4096x224x224 := by
  show StableHlo.after hostOps0 (fun b => m (c, b)) (Proc.devRef .tc main_v0) = _
  after_results
  rfl

/-- The program's result: the host splits the plane axis of the kernel's output array again. -/
theorem tail_eq (c : Dev nD) : Pipeline.afterTail₀ cfgs (dats m) 0 (V0 m) [hostOps1] c main_v2
    = shapeCast S32x128x112x112 (poolPlanes (V m c main_v0)) shapeCasts_S4096x112x112_S32x128x112x112 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = poolPlanes (V m c main_v0) :=
    (Pipeline.withArrays_arr spec0 launch0.win.arr_inj c _ _ 1).trans (final m c)
  rw [e]
  rfl

/-- The kernel's run: every weakly fair execution ends with the result at the pooled argument tensor and the
    argument unchanged. -/
theorem run : θ_run defs (onTc (τ := τ) (main (F := Ideal))) ⟨m, fun _ => 0, ρ⟩ fun r => ∀ c : Dev nD,
      r.2.mem ((c.tc : Thread nD τ).loc main_v2) = poolImg (m ((c.tc : Thread nD τ).loc main_arg0))
      ∧ r.2.mem ((c.tc : Thread nD τ).loc main_arg0) = m ((c.tc : Thread nD τ).loc main_arg0) :=
  (θ_run defs _ _).mono (fun r h c =>
    ⟨(((h c).2 main_v2 (Pipeline.mem_restRefs_of main_v2 (by decide) (by decide))).trans (tail_eq m c)).trans
        (by rw [V_main_v0]; exact split_pool_merge _ _ _),
      ((h c).2 main_arg0 (Pipeline.mem_restRefs_of main_arg0 (by decide) (by decide))).trans (W_main_arg0 m (dats m) c)⟩)
    (run_main m ρ)

end Cert.KernelIdeal.PoolValue

end
-- ==== Proof.PoolWindow.lean ====
/-
  The reference's windowed reduction read at an index. A window of extents (1, 1, 2, 2) moved with strides
  (1, 1, 2, 2) and no padding over a [32, 128, 224, 224] tensor visits, at output position (b, c, i, j), the
  four entries (b, c, 2i + k, 2j + l), k, l ∈ {0, 1}: the window has four positions, listed in row-major
  order as (0,0,0,0), (0,0,0,1), (0,0,1,0), (0,0,1,1), every one of them lands inside the tensor (2i + 1 ≤ 223),
  so no position reads the padding value, and the reduction is the body folded over the four entries in
  that order from the initial value.
-/
import proofs.«103220_j12094627905543_2_alg».proof.Proof.PoolOps
import Idealize.ShloMosaic.PureOps

noncomputable section

namespace Cert.Pool

open Idealize.ShloMosaic Idealize.ShloMosaic.ValueIdx

/-- The window as a shape: one image, one channel, two rows, two columns. -/
abbrev Win : Shape := ⟨4, ![1, 1, 2, 2]⟩

/-- The window's four positions in row-major order. -/
theorem finRange_window : List.finRange Win.numel
    = [Win.rowMajor (ix4 0 0 0 0), Win.rowMajor (ix4 0 0 0 1), Win.rowMajor (ix4 0 0 1 0), Win.rowMajor (ix4 0 0 1 1)] := by
  apply List.map_injective_iff.2 Fin.val_injective
  rw [List.map_coe_finRange_eq_range]
  simp only [List.map_cons, List.map_nil, Shape.rowMajor_val_four]
  rw [show Win.numel = 4 from by decide]
  rfl

/-- What window position n contributes at output index jj: the tensor's entry at stride · jj + n when that
    lies inside the tensor, the padding value v otherwise. -/
def entry {α : Type} (x : Img.Idx → α) (v : α) (jj : ImgOut.Idx) (n : Win.Idx) : α :=
  if hin : ∀ a : Fin 4, (![0, 0, 0, 0] : Fin 4 → ℕ) a ≤ (jj (Fin.cast rfl a)).val * (![1, 1, 2, 2] : Fin 4 → ℕ) a + (n a).val
      ∧ (jj (Fin.cast rfl a)).val * (![1, 1, 2, 2] : Fin 4 → ℕ) a + (n a).val - (![0, 0, 0, 0] : Fin 4 → ℕ) a < Img.size a
  then x (fun a => ⟨(jj (Fin.cast rfl a)).val * (![1, 1, 2, 2] : Fin 4 → ℕ) a + (n a).val - (![0, 0, 0, 0] : Fin 4 → ℕ) a, (hin a).2⟩)
  else v

/-- Position (0, 0, k, l) at output (b, c, i, j) is inside the tensor and reads entry (b, c, 2i + k, 2j + l). -/
theorem entry_eq {α : Type} (x : Img.Idx → α) (v : α) (b : Fin 32) (ch : Fin 128) (i j : Fin 112) (k l : Fin 2) :
    entry x v (ix4 b ch i j) (ix4 0 0 k l) = x (ix4 b ch (tap i k) (tap j l)) := by
  unfold entry
  refine (dif_pos ?_).trans ?_
  · intro a
    match a with
    | ⟨0, _⟩ => exact ⟨Nat.zero_le _, by show b.val * 1 + 0 - 0 < 32; omega⟩
    | ⟨1, _⟩ => exact ⟨Nat.zero_le _, by show ch.val * 1 + 0 - 0 < 128; omega⟩
    | ⟨2, _⟩ => exact ⟨Nat.zero_le _, by show i.val * 2 + k.val - 0 < 224; omega⟩
    | ⟨3, _⟩ => exact ⟨Nat.zero_le _, by show j.val * 2 + l.val - 0 < 224; omega⟩
  · refine congrArg x ?_
    funext a; apply Fin.ext
    match a with
    | ⟨0, _⟩ => show b.val * 1 + 0 - 0 = b.val; omega
    | ⟨1, _⟩ => show ch.val * 1 + 0 - 0 = ch.val; omega
    | ⟨2, _⟩ => show i.val * 2 + k.val - 0 = 2 * i.val + k.val; omega
    | ⟨3, _⟩ => show j.val * 2 + l.val - 0 = 2 * j.val + l.val; omega

/-- The windowed reduction at (b, c, i, j): the body folded from the initial value over the window's four
    entries, first row first. -/
theorem window_apply {α : Type} (f : α → α → α) (x : Img.Idx → α) {u : Shape} (init : u.Idx → α)
    (h : Img.ReduceWindows (![1, 1, 2, 2] : Fin 4 → Nat) ![1, 1, 2, 2] ![0, 0, 0, 0] ![0, 0, 0, 0] ImgOut) (hu : 0 < u.numel)
    (b : Fin 32) (ch : Fin 128) (i j : Fin 112) :
    Host.reduceWindow f ![1, 1, 2, 2] ![1, 1, 2, 2] ![0, 0, 0, 0] ![0, 0, 0, 0] x init h hu (ix4 b ch i j)
      = f (f (f (f (init (Shape.Idx.first hu)) (x (ix4 b ch (tap i 0) (tap j 0)))) (x (ix4 b ch (tap i 0) (tap j 1))))
          (x (ix4 b ch (tap i 1) (tap j 0)))) (x (ix4 b ch (tap i 1) (tap j 1))) := by
  unfold Host.reduceWindow
  dsimp only
  rw [finRange_window]
  simp only [List.foldl_cons, List.foldl_nil, Equiv.symm_apply_apply]
  have e := fun k l => entry_eq x (init (Shape.Idx.first hu)) b ch i j k l
  unfold entry at e
  exact congrArg₂ f (congrArg₂ f (congrArg₂ f (congrArg₂ f rfl (e 0 0)) (e 0 1)) (e 1 0)) (e 1 1)

end Cert.Pool

end
-- ==== Proof.PoolReference.lean ====
/-
  The reference computes max pooling of the tensor: its windowed max from −∞ visits, at (b, c, i, j), the
  four entries of rows 2i, 2i + 1 and columns 2j, 2j + 1 of channel c of image b, and the max of −∞ and
  those four, taken in any grouping, is the pooled value.
-/
import proofs.«103220_j12094627905543_2_alg».proof.Proof.Gen.ReferenceIdeal.Read
import proofs.«103220_j12094627905543_2_alg».proof.Proof.PoolWindow

noncomputable section

namespace Cert.ReferenceIdeal.PoolValue

open Cert.ReferenceIdeal Cert.ReferenceIdeal.Gen Cert.ReferenceIdeal.Read Cert.Pool
open Idealize.ShloMosaic Idealize.ShloMosaic.ValueIdx

/-- The reference's result, as a function of its argument, is the pooled tensor. -/
theorem reference_eq (x0 : (⟨S32x128x224x224, .f32⟩ : BufTy).Contents (Elt Ideal)) :
    val_main_v1 (F := Ideal) x0 = poolImg x0 := by
  funext q
  obtain ⟨b, ch, i, j, rfl⟩ : ∃ (b : Fin 32) (ch : Fin 128) (i j : Fin 112), q = ix4 b ch i j :=
    ⟨q 0, q 1, q 2, q 3, eq_ix4 q⟩
  unfold val_main_v1
  refine (window_apply _ x0 _ _ _ b ch i j).trans ?_
  rw [val_main_v0_apply, val_main_cst_apply, Ideal.ofBits_def, ofBits_neg_inf, poolImg_apply]
  exact walk_eq_pool2 (fun r w => x0 (ix4 b ch r w)) i j

end Cert.ReferenceIdeal.PoolValue

end
-- ==== Proof.lean ====
/- Max pooling (2 × 2 window, stride 2, no padding) of a [32, 128, 224, 224] tensor: the kernel against the
   windowed max of the reference, equal as extended reals.

   The kernel merges image and channel into 4096 planes, and at each of 128 grid points pools a block of 32
   planes in two steps: the max over each pair of adjacent columns, then the max over each pair of adjacent
   rows, each a fold from −∞ over an axis of extent two. So its output at (b, c, i, j) is
   max (max x(2i, 2j) x(2i, 2j+1)) (max x(2i+1, 2j) x(2i+1, 2j+1)) on channel c of image b. The reference folds
   max from −∞ over the same four entries in one pass. On the extended reals max is associative and −∞ is
   its identity, so the two agree at every index; no input needs to be finite for that, and the
   precondition is not used. The idealized kernel is the kernel's own text read over the extended reals (no
   operation was rewritten), so the idealization conjunct is trivial; the kernels' frames are the generated
   ones and the reference's frame is its generated run with the result dropped. -/
import proofs.«103220_j12094627905543_2_alg».proof.Defs
import proofs.«103220_j12094627905543_2_alg».proof.Proof.Gen.Kernel
import proofs.«103220_j12094627905543_2_alg».proof.Proof.Gen.Kernel.Skeleton
import proofs.«103220_j12094627905543_2_alg».proof.Proof.Gen.Kernel.Launch
import proofs.«103220_j12094627905543_2_alg».proof.Proof.Gen.Kernel.Points
import proofs.«103220_j12094627905543_2_alg».proof.Proof.Gen.Kernel.Frame
import proofs.«103220_j12094627905543_2_alg».proof.Proof.Gen.KernelIdeal
import proofs.«103220_j12094627905543_2_alg».proof.Proof.Gen.KernelIdeal.Skeleton
import proofs.«103220_j12094627905543_2_alg».proof.Proof.Gen.KernelIdeal.Launch
import proofs.«103220_j12094627905543_2_alg».proof.Proof.Gen.KernelIdeal.Points
import proofs.«103220_j12094627905543_2_alg».proof.Proof.Gen.KernelIdeal.Frame
import proofs.«103220_j12094627905543_2_alg».proof.Proof.Gen.ReferenceIdeal
import proofs.«103220_j12094627905543_2_alg».proof.Proof.Gen.Pre_finite_inputs
import proofs.«103220_j12094627905543_2_alg».proof.Proof.Gen.ReferenceIdeal.Run
import proofs.«103220_j12094627905543_2_alg».proof.Proof.Gen.ReferenceIdeal.Read
import proofs.«103220_j12094627905543_2_alg».proof.Proof.PoolArray
import proofs.«103220_j12094627905543_2_alg».proof.Proof.PoolReference
import Idealize.ShloMosaic.Adequacy
import Idealize.ShloMosaic.Init

noncomputable section

namespace Cert.Proof

open Idealize.ShloMosaic Idealize.SL.Sem Cert.Kernel

/-- The kernel's frame, at the word level: the generated frame. -/
theorem frame_kernel : Cert.frame_Kernel := fun m ρ _ => Cert.Kernel.Gen.frame m ρ

/-- The idealized kernel's frame: the generated frame. -/
theorem frame_kernelIdeal : Cert.frame_KernelIdeal := fun m ρ _ => Cert.KernelIdeal.Gen.frame m ρ

/-- The reference's frame: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the pooled argument tensor: the kernel by pooling every plane block by block, the
    reference by its windowed max; from arguments that agree, the results agree. -/
theorem algebraic : Cert.algebraic_KernelIdeal_ReferenceIdeal := by
  intro m ρ m' ρ' _ hagree
  refine ⟨fun c => Cert.Pool.poolImg (m ((c.tc : Thread Cert.KernelIdeal.nD Cert.KernelIdeal.τ).loc Cert.KernelIdeal.main_arg0)),
    Cert.KernelIdeal.PoolValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.PoolValue.reference_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
